-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S4096x128x1 : Shape := ⟨3, ![4096, 128, 1]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S4096x128x1 : S_.BroadcastsInDim S4096x128x1 (![] : Fin 0 → Fin S4096x128x1.rank)
  reducesTo_S4096x128x1_S_d0_1_2 : S4096x128x1.ReducesTo [0, 1, 2] S_

variable [Facts]

def fn_part1 {F : FTy → Type} [FloatOps F] (main_arg4 : FVec F S4096x128x1 .f32) (main_v13 : IVec S_ 1) (main_v16 : IVec S4096x128x1 1) : IVec S_ 1 :=
  let main_c_5 : IVec S_ 1 := constantI S_ 1 1#1
  let main_v17 : IVec S_ 1 := (fun x v => Host.reduce IntOp.andi x v reducesTo_S4096x128x1_S_d0_1_2 h_S_) main_v16 main_c_5
  let main_v18 : IVec S_ 1 := andi main_v13 main_v17
  let main_v19 : FVec F S4096x128x1 .f32 := Host.absf main_arg4
  let main_cst_6 : FVec F S_ .f32 := constant S_ .f32 0x7F800000#32
  let main_v20 : FVec F S4096x128x1 .f32 := broadcastInDim S4096x128x1 ![] bcast_S_S4096x128x1 main_cst_6
  let main_v21 : IVec S4096x128x1 1 := cmpf .olt main_v19 main_v20
  let main_c_7 : IVec S_ 1 := constantI S_ 1 1#1
  let main_v22 : IVec S_ 1 := (fun x v => Host.reduce IntOp.andi x v reducesTo_S4096x128x1_S_d0_1_2 h_S_) main_v21 main_c_7
  let main_v23 : IVec S_ 1 := andi main_v18 main_v22
  main_v23

def fn {F : FTy → Type} [FloatOps F] (main_arg0 : FVec F S4x2048x4096 .f32) (main_arg1 : FVec F S4096x4096 .f32) (main_arg2 : FVec F S4096 .f32) (main_arg3 : FVec F S4096x128x1 .f32) (main_arg4 : FVec F S4096x128x1 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x128x1 .f32 := Host.absf main_arg3
  let main_cst_4 : FVec F S_ .f32 := constant S_ .f32 0x7F800000#32
  let main_v15 : FVec F S4096x128x1 .f32 := broadcastInDim S4096x128x1 ![] bcast_S_S4096x128x1 main_cst_4
  let main_v16 : IVec S4096x128x1 1 := cmpf .olt main_v14 main_v15
  fn_part1 (F := F) main_arg4 main_v13 main_v16
-- ==== Kernel.lean ====
abbrev S4x2048x4096 : Shape := ⟨3, ![4, 2048, 4096]⟩
abbrev S4096x4096 : Shape := ⟨2, ![4096, 4096]⟩
abbrev S4096 : Shape := ⟨1, ![4096]⟩
abbrev S4096x128x1 : Shape := ⟨3, ![4096, 128, 1]⟩
abbrev S4096x128x32 : Shape := ⟨3, ![4096, 128, 32]⟩
abbrev S_ : Shape := ⟨0, ![]⟩
abbrev S512x128x32 : Shape := ⟨3, ![512, 128, 32]⟩
abbrev S512x128x1 : Shape := ⟨3, ![512, 128, 1]⟩
abbrev S8192x4096 : Shape := ⟨2, ![8192, 4096]⟩
abbrev S2048x1024 : Shape := ⟨2, ![2048, 1024]⟩
abbrev S2048 : Shape := ⟨1, ![2048]⟩
abbrev S2048x2048 : Shape := ⟨2, ![2048, 2048]⟩
abbrev S1x2048 : Shape := ⟨2, ![1, 2048]⟩

abbrev nBuf : Space → Nat
  | .hbm => 15
  | .vmem => 18
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S4096x128x1, .f32⟩
  | .hbm, ⟨4, _⟩ => ⟨S4096x128x1, .f32⟩
  | .hbm, ⟨5, _⟩ => ⟨S4096x128x32, .f32⟩
  | .hbm, ⟨6, _⟩ => ⟨S_, .f32⟩
  | .hbm, ⟨7, _⟩ => ⟨S4096x128x1, .f32⟩
  | .hbm, ⟨8, _⟩ => ⟨S4096x128x1, .f32⟩
  | .hbm, ⟨9, _⟩ => ⟨S4096x128x32, .bf16⟩
  | .hbm, ⟨10, _⟩ => ⟨S4096x4096, .bf16⟩
  | .hbm, ⟨11, _⟩ => ⟨S8192x4096, .f32⟩
  | .hbm, ⟨12, _⟩ => ⟨S8192x4096, .bf16⟩
  | .hbm, ⟨13, _⟩ => ⟨S8192x4096, .f32⟩
  | .hbm, ⟨14, _⟩ => ⟨S4x2048x4096, .f32⟩
  | .local _ .vmem, ⟨0, _⟩ => ⟨S512x128x32, .f32⟩
  | .local _ .vmem, ⟨1, _⟩ => ⟨S512x128x32, .f32⟩
  | .local _ .vmem, ⟨2, _⟩ => ⟨S512x128x1, .f32⟩
  | .local _ .vmem, ⟨3, _⟩ => ⟨S512x128x1, .f32⟩
  | .local _ .vmem, ⟨4, _⟩ => ⟨S512x128x1, .f32⟩
  | .local _ .vmem, ⟨5, _⟩ => ⟨S512x128x1, .f32⟩
  | .local _ .vmem, ⟨6, _⟩ => ⟨S512x128x1, .f32⟩
  | .local _ .vmem, ⟨7, _⟩ => ⟨S512x128x1, .f32⟩
  | .local _ .vmem, ⟨8, _⟩ => ⟨S512x128x32, .bf16⟩
  | .local _ .vmem, ⟨9, _⟩ => ⟨S512x128x32, .bf16⟩
  | .local _ .vmem, ⟨10, _⟩ => ⟨S2048x1024, .bf16⟩
  | .local _ .vmem, ⟨11, _⟩ => ⟨S2048x1024, .bf16⟩
  | .local _ .vmem, ⟨12, _⟩ => ⟨S2048x1024, .bf16⟩
  | .local _ .vmem, ⟨13, _⟩ => ⟨S2048x1024, .bf16⟩
  | .local _ .vmem, ⟨14, _⟩ => ⟨S2048, .f32⟩
  | .local _ .vmem, ⟨15, _⟩ => ⟨S2048, .f32⟩
  | .local _ .vmem, ⟨16, _⟩ => ⟨S2048x2048, .f32⟩
  | .local _ .vmem, ⟨17, _⟩ => ⟨S2048x2048, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x128x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128x32 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨3, ![4, 2, 4], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S2048x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S2048x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  shapeCasts_S4096x4096_S4096x128x32 : S4096x4096.ShapeCasts S4096x128x32
  bcast_S_S4096x128x1 : S_.BroadcastsInDim S4096x128x1 (![] : Fin 0 → Fin S4096x128x1.rank)
  inb_S512x128x32_S512x128x32_0_0_0 : ∀ a, (![0, 0, 0] : Fin 3 → Nat) a + S512x128x32.size a ≤ S512x128x32.size a
  h_S512x128x32 : 0 < S512x128x32.numel
  shapeCasts_S512x128x32_S512x128x32 : S512x128x32.ShapeCasts S512x128x32
  inb_S512x128x1_S512x128x1_0_0_0 : ∀ a, (![0, 0, 0] : Fin 3 → Nat) a + S512x128x1.size a ≤ S512x128x1.size a
  h_S512x128x1 : 0 < S512x128x1.numel
  shapeCasts_S512x128x1_S512x128x1 : S512x128x1.ShapeCasts S512x128x1
  broadcasts_S512x128x1_S512x128x32 : S512x128x1.Broadcasts S512x128x32
  bitsLt_bf16_f32 : FTy.bits .bf16 < FTy.bits .f32
  packedbf16_S512x128x32_S512x128x32_0_0_0 : (Rect.unit (s := S512x128x32) ![0, 0, 0] S512x128x32.size inb_S512x128x32_S512x128x32_0_0_0).PackedRows (EltTy.packing .bf16)
  shapeCasts_S4096x128x32_S4096x4096 : S4096x128x32.ShapeCasts S4096x4096
  shapeCasts_S4x2048x4096_S8192x4096 : S4x2048x4096.ShapeCasts S8192x4096
  inb_S2048_S2048_0 : ∀ a, (![0] : Fin 1 → Nat) a + S2048.size a ≤ S2048.size a
  h_S2048 : 0 < S2048.numel
  shapeCasts_S2048_S1x2048 : S2048.ShapeCasts S1x2048
  shapeCasts_S1x2048_S1x2048 : S1x2048.ShapeCasts S1x2048
  broadcasts_S1x2048_S2048x2048 : S1x2048.Broadcasts S2048x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  shapeCasts_S8192x4096_S4x2048x4096 : S8192x4096.ShapeCasts S4x2048x4096
  dot_S2048x1024_S2048x1024_S2048x2048_1_1_0_0_n_n_wf : DotDims.WF S2048x1024 S2048x1024 S2048x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128x32.size a ≤ S4096x128x32.size a
  hwx0_0 : ∀ i : grid0.Coords, EltTy.bits .f32 = 32 ∨ (Rect.block (s := S4096x128x32) S512x128x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x128x1.size a ≤ S4096x128x1.size a
  hwx0_1 : ∀ i : grid0.Coords, EltTy.bits .f32 = 32 ∨ (Rect.block (s := S4096x128x1) S512x128x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x128x1.size a ≤ S4096x128x1.size a
  hwx0_2 : ∀ i : grid0.Coords, EltTy.bits .f32 = 32 ∨ (Rect.block (s := S4096x128x1) S512x128x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x128x1.size a ≤ S4096x128x1.size a
  hwx0_3 : ∀ i : grid0.Coords, EltTy.bits .f32 = 32 ∨ (Rect.block (s := S4096x128x1) S512x128x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x128x32.size a ≤ S4096x128x32.size a
  hwx0_4 : ∀ i : grid0.Coords, EltTy.bits .bf16 = 32 ∨ (Rect.block (s := S4096x128x32) S512x128x32.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S8192x4096.size a
  hwx1_0 : ∀ i : grid1.Coords, EltTy.bits .bf16 = 32 ∨ (Rect.block (s := S8192x4096) S2048x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x1024.size a ≤ S4096x4096.size a
  hwx1_1 : ∀ i : grid1.Coords, EltTy.bits .bf16 = 32 ∨ (Rect.block (s := S4096x4096) S2048x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048.size a ≤ S4096.size a
  hwx1_2 : ∀ i : grid1.Coords, EltTy.bits .f32 = 32 ∨ (Rect.block (s := S4096) S2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x2048.size a ≤ S8192x4096.size a
  hwx1_3 : ∀ i : grid1.Coords, EltTy.bits .f32 = 32 ∨ (Rect.block (s := S8192x4096) S2048x2048.size (cc1_transform_3 i) (hinb1_3 i)).WholeWords (EltTy.packing .f32)

variable [Facts₀]

def dot_S2048x1024_S2048x1024_S2048x2048_1_1_0_0_n_n : DotDims S2048x1024 S2048x1024 S2048x2048 where
  lhsContracting := [1]
  rhsContracting := [1]
  lhsNonContracting := [0]
  rhsNonContracting := [0]
  lhsBatch := []
  rhsBatch := []
  wf := dot_S2048x1024_S2048x1024_S2048x2048_1_1_0_0_n_n_wf

abbrev win0_0 : Pipeline.Window sig grid0 :=
  Pipeline.Window.ofSpec (Memref.whole main_v0) S512x128x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x128x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S512x128x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S512x128x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S512x128x32.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v6) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S2048x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S4096x128x1 : Shape := ⟨3, ![4096, 128, 1]⟩
abbrev S4096x128x32 : Shape := ⟨3, ![4096, 128, 32]⟩
abbrev S_ : Shape := ⟨0, ![]⟩
abbrev S1x1x4096 : Shape := ⟨3, ![1, 1, 4096]⟩

abbrev nBuf : Space → Nat
  | .hbm => 28
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S4096x128x1, .f32⟩
  | .hbm, ⟨4, _⟩ => ⟨S4096x128x1, .f32⟩
  | .hbm, ⟨5, _⟩ => ⟨S4096x128x32, .f32⟩
  | .hbm, ⟨6, _⟩ => ⟨S4096x128x32, .f32⟩
  | .hbm, ⟨7, _⟩ => ⟨S4096x128x32, .f32⟩
  | .hbm, ⟨8, _⟩ => ⟨S4096x128x32, .f32⟩
  | .hbm, ⟨9, _⟩ => ⟨S4096x128x32, .f32⟩
  | .hbm, ⟨10, _⟩ => ⟨S4096x128x32, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S4096x128x32, .f32⟩
  | .hbm, ⟨15, _⟩ => ⟨S4096x128x32, .f32⟩
  | .hbm, ⟨16, _⟩ => ⟨S_, .f32⟩
  | .hbm, ⟨17, _⟩ => ⟨S4096x128x32, .f32⟩
  | .hbm, ⟨18, _⟩ => ⟨S4096x128x32, .f32⟩
  | .hbm, ⟨19, _⟩ => ⟨S4096x128x32, .f32⟩
  | .hbm, ⟨20, _⟩ => ⟨S4096x128x32, .f32⟩
  | .hbm, ⟨21, _⟩ => ⟨S4096x128x32, .f32⟩
  | .hbm, ⟨22, _⟩ => ⟨S4096x128x32, .f32⟩
  | .hbm, ⟨23, _⟩ => ⟨S4096x4096, .f32⟩
  | .hbm, ⟨24, _⟩ => ⟨S4x2048x4096, .f32⟩
  | .hbm, ⟨25, _⟩ => ⟨S1x1x4096, .f32⟩
  | .hbm, ⟨26, _⟩ => ⟨S4x2048x4096, .f32⟩
  | .hbm, ⟨27, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_cst_0 : Ref sig .tc := ⟨.hbm, 12, rfl⟩
abbrev main_call1_v0 : Ref sig .tc := ⟨.hbm, 13, rfl⟩
abbrev main_call1_v1 : Ref sig .tc := ⟨.hbm, 14, rfl⟩
abbrev main_call1_v2 : Ref sig .tc := ⟨.hbm, 15, rfl⟩
abbrev main_call1_v3 : Ref sig .tc := ⟨.hbm, 16, rfl⟩
abbrev main_call1_v4 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩

abbrev nD : Nat := 1
abbrev τ : Topo := Topo.v7x

variable {F : FTy → Type} [FloatOps F]

class Facts₀ : Prop where
  shapeCasts_S4096x4096_S4096x128x32 : S4096x4096.ShapeCasts S4096x128x32
  bcast_S4096x128x1_S4096x128x32_0_1_2 : S4096x128x1.BroadcastsInDim S4096x128x32 (![0, 1, 2] : Fin 3 → Fin S4096x128x32.rank)
  bcast_S_S4096x128x32 : S_.BroadcastsInDim S4096x128x32 (![] : Fin 0 → Fin S4096x128x32.rank)
  shapeCasts_S4096x128x32_S4096x4096 : S4096x128x32.ShapeCasts S4096x4096
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.RunValue.lean ====
/-
  The idealized kernel program's run WITH its result named.  The program is five segments: host operations, the
  dequantize region, host operations, the matmul region, host operations.  Every weakly fair execution terminates
  without a fault; at the end every buffer that outlives the regions holds the last boundary's contents, so the result
  array holds what the last stretch of host operations leaves in it, and the five arguments hold what they were launched
  with.
-/
import proofs.«102641_j32684701122970_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result array at the contents the
    last boundary of the fold gives it and each argument array as launched. -/
theorem run_result : θ_run defs (onTc (τ := τ) (main (F := F))) ⟨m, fun _ => 0, ρ⟩ (fun r => ∀ c : Dev nD,
      r.2.mem ((c.tc : Thread nD τ).loc main_v8) = W5 m ρ c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v8 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c)⟩)

end Cert.KernelIdeal.RunValue

end
-- ==== Proof.HostGlue.lean ====
/-
  The host operations around the two kernel regions, read off the fold of buffer contents.

  The program's @main is three stretches of host operations with a kernel region after the first and after the second:

    stretch 0:  v0 := reshape arg1 to [4096,128,32];  cst := 1;  v1 := broadcast cst to [4096,128,1];  v2 := v1 / arg3
    region 0 :  reads v0, v2, arg3, arg4 and writes v3
    stretch 1:  v4 := reshape v3 to [4096,4096];  v5 := reshape arg0 to [8192,4096];  v6 := convert v5 to bf16
    region 1 :  reads v6, v4, arg2 and writes v7
    stretch 2:  v8 := reshape v7 to [4,2048,4096]

  Each lemma below says what one buffer holds where a region is entered (or at the end), as a pure term of the
  launch contents `m` or of a region's output array.  A buffer a stretch writes holds the operation's function of
  its operands' contents; a buffer a stretch does not write, and a region does not have as an output, holds what it
  held before.
-/
import proofs.«102641_j32684701122970_2_alg».proof.Proof.Gen.KernelIdeal.Frame
import Idealize.ShloMosaic.Lib.StableHlo.Run
import Idealize.ShloMosaic.PureOps.Ideal
import Idealize.ShloMosaic.Lib.IdealHost

set_option maxRecDepth 16384

noncomputable section

open Idealize.ShloMosaic Idealize.ShloMosaic.TcCoe Idealize.SL.Sem

namespace Cert.KernelIdeal.HostGlue

open Cert.KernelIdeal Cert.KernelIdeal.Gen

variable (m : (ℓ : Loc nD τ sig) → Buf (Elt Ideal) ℓ) (ρ : Dev nD → PrngReg) (c : Dev nD)

/-! ## Stretch 0: the contents at region 0's entry -/

/-- `v0` is written once, by the reshape of `arg1`, which no operation writes: it holds the launch weights regrouped
    to [4096,128,32]. -/
theorem V1_v0 : V1 m ρ c main_v0 = shapeCast S4096x128x32 (m ((c : Thread nD τ).loc main_arg1)) shapeCasts_S4096x4096_S4096x128x32 := by
  show StableHlo.after hostOps0 (W0 m ρ c) (Proc.devRef .tc main_v0) = _
  after_results <;> rfl

/-- `v2` is the quotient of `v1` (the constant 1 broadcast to [4096,128,1]) by `arg3` (the scales, as launched). -/
theorem V1_v2 : V1 m ρ c main_v2 = Host.divf (broadcastInDim S4096x128x1 ![] bcast_S_S4096x128x1 (constant (F := Ideal) S_ .f32 0x3F800000#32)) (m ((c : Thread nD τ).loc main_arg3)) := by
  show StableHlo.after hostOps0 (W0 m ρ c) (Proc.devRef .tc main_v2) = _
  after_results <;> rfl

/-- Stretch 0 does not write `arg3`. -/
theorem V1_arg3 : V1 m ρ c main_arg3 = m ((c : Thread nD τ).loc main_arg3) := by
  show StableHlo.after hostOps0 (W0 m ρ c) (Proc.devRef .tc main_arg3) = _
  after_results <;> rfl

/-- Stretch 0 does not write `arg4`. -/
theorem V1_arg4 : V1 m ρ c main_arg4 = m ((c : Thread nD τ).loc main_arg4) := by
  show StableHlo.after hostOps0 (W0 m ρ c) (Proc.devRef .tc main_arg4) = _
  after_results <;> rfl

/-! ## Stretch 1: the contents at region 1's entry

Region 0's only output array is `v3` (its window 4); its other four windows are inputs.  So at region 0's exit `v3`
holds the fold of the region's write-backs and every other buffer what it held at the region's entry. -/

/-- `arg0` at region 0's exit: neither stretch 0 nor region 0 writes it. -/
theorem W2_arg0 : W2 m ρ c (Proc.devRef .tc main_arg0) = m ((c : Thread nD τ).loc main_arg0) := by
  refine (W2_of_ne m ρ c main_arg0 (by decide)).trans ?_
  show StableHlo.after hostOps0 (W0 m ρ c) (Proc.devRef .tc main_arg0) = _
  after_results <;> rfl

/-- `arg2` at region 0's exit: neither stretch 0 nor region 0 writes it. -/
theorem W2_arg2 : W2 m ρ c (Proc.devRef .tc main_arg2) = m ((c : Thread nD τ).loc main_arg2) := by
  refine (W2_of_ne m ρ c main_arg2 (by decide)).trans ?_
  show StableHlo.after hostOps0 (W0 m ρ c) (Proc.devRef .tc main_arg2) = _
  after_results <;> rfl

/-- `v6` is the conversion to bf16 of `v5`, the reshape to [8192,4096] of `arg0` (the activations, as launched). -/
theorem V3_v6 : V3 m ρ c main_v6 = (truncf (F := Ideal) .bf16 (shapeCast S8192x4096 (m ((c : Thread nD τ).loc main_arg0)) shapeCasts_S4x2048x4096_S8192x4096) bitsLt_bf16_f32 : FVec Ideal S8192x4096 .bf16) := by
  show StableHlo.after hostOps1 (W2 m ρ c) (Proc.devRef .tc main_v6) = _
  after_results
  rw [W2_arg0 m ρ c]
  rfl

/-- `v4` is the reshape to [4096,4096] of `v3`, region 0's output array. -/
theorem V3_v4 : V3 m ρ c main_v4 = shapeCast S4096x4096 ((dat0 (V1 m ρ) c).arrAt 4 cfg0.N) shapeCasts_S4096x128x32_S4096x4096 := by
  show StableHlo.after hostOps1 (W2 m ρ c) (Proc.devRef .tc main_v4) = _
  after_results
  have e : W2 m ρ c (Proc.devRef .tc main_v3) = (dat0 (V1 m ρ) c).arrAt 4 cfg0.N := W2_arr m ρ c 4
  rw [e]
  rfl

/-- Stretch 1 does not write `arg2`. -/
theorem V3_arg2 : V3 m ρ c main_arg2 = m ((c : Thread nD τ).loc main_arg2) := by
  show StableHlo.after hostOps1 (W2 m ρ c) (Proc.devRef .tc main_arg2) = _
  after_results
  exact W2_arg2 m ρ c

/-! ## Stretch 2: the result

Region 1's only output array is `v7` (its window 3). -/

/-- `v8` is the reshape to [4,2048,4096] of `v7`, region 1's output array. -/
theorem W5_v8 : W5 m ρ c (Proc.devRef .tc main_v8) = shapeCast S4x2048x4096 ((dat1 (V3 m ρ) c).arrAt 3 cfg1.N) shapeCasts_S8192x4096_S4x2048x4096 := by
  show StableHlo.after hostOps2 (W4 m ρ c) (Proc.devRef .tc main_v8) = _
  after_results
  have e : W4 m ρ c (Proc.devRef .tc main_v7) = (dat1 (V3 m ρ) c).arrAt 3 cfg1.N := W4_arr m ρ c 3
  rw [e]
  rfl

end Cert.KernelIdeal.HostGlue

end
-- ==== Proof.QuantSpec.lean ====
/-
  The mathematics of the group-wise 4-bit quantized linear layer, stated once over the extended reals.

  A weight `w`, its group's scale `s` and zero point `z` give the dequantized weight
  `(clamp₀¹⁵ (round (w / s + z)) - z) · s`.  One program forms the quotient `w / s` directly, the other multiplies `w`
  by a reciprocal `1 / s` computed beforehand.  The two agree at every extended real: off `s = 0` the quotient IS the
  product with the inverse, and at `s = 0` the final factor `s` annihilates whatever the clamp produced.
  The layer's output at (p, q, o) is the sum over the 4096 input channels of `x (p, q, k) · D (o, k)` plus the bias at `o`.
-/
import Idealize.ShloMosaic.PureOps.Ideal
import Idealize.ShloMosaic.PureOps.Ideal.Laws
import Idealize.ShloMosaic.Lib.ValueIdx
import Idealize.ShloMosaic.Lib.IdealHost

noncomputable section

namespace Cert.Quant

open Idealize.ShloMosaic Idealize.ShloMosaic.ValueIdx

/-- The clamp's lower bound, the f32 word of 0. -/
abbrev lo : EReal := Ideal.ofBits .f32 0x00000000#32
/-- The clamp's upper bound, the f32 word of 15. -/
abbrev hi : EReal := Ideal.ofBits .f32 0x41700000#32
/-- Rounding to the nearest integer, ties to even, the infinities fixed. -/
abbrev rnd (x : EReal) : EReal := Ideal.liftRound Ideal.roundHalfEven x

/-- The dequantized weight with the quotient `w / s` formed directly. -/
def dqQuot (w s z : EReal) : EReal := (min hi (max lo (rnd (Ideal.div w s + z))) - z) * s

/-- The dequantized weight with `w` multiplied by a reciprocal `r` computed beforehand. -/
def dqRecip (w r s z : EReal) : EReal := (min hi (max lo (rnd (w * r + z))) - z) * s

/-- With `r = 1 / s` the two forms agree on all extended reals: for `s ≠ 0` both `w / s` and `w · (1 / s)` are
    `w · s⁻¹`; for `s = 0` both results are a product with `0`. -/
theorem dqRecip_one_div (w s z : EReal) : dqRecip w (Ideal.div 1 s) s z = dqQuot w s z := by
  unfold dqRecip dqQuot
  by_cases hs : s = 0
  · subst hs; rw [mul_zero, mul_zero]
  · simp only [Ideal.div, if_neg hs, one_mul]

abbrev SW3 : Shape := ⟨3, ![4096, 128, 32]⟩
abbrev SQ : Shape := ⟨3, ![4096, 128, 1]⟩
abbrev SW2 : Shape := ⟨2, ![4096, 4096]⟩
abbrev SX3 : Shape := ⟨3, ![4, 2048, 4096]⟩
abbrev SX2 : Shape := ⟨2, ![8192, 4096]⟩
abbrev SB : Shape := ⟨1, ![4096]⟩

/-- The dequantized weights as a [4096, 128, 32] array (output channel, group, position in the group): entry
    (o, g, e) from the weight there and group (o, g)'s scale and zero point. -/
def deq (w3 : SW3.Idx → EReal) (s z : SQ.Idx → EReal) : SW3.Idx → EReal := fun i =>
  dqQuot (w3 i) (s (ix3 (i 0) (i 1) (0 : Fin 1))) (z (ix3 (i 0) (i 1) (0 : Fin 1)))

/-- The same with the reciprocal scales `r` given as an array. -/
def deqRecip (w3 : SW3.Idx → EReal) (r s z : SQ.Idx → EReal) : SW3.Idx → EReal := fun i =>
  dqRecip (w3 i) (r (ix3 (i 0) (i 1) (0 : Fin 1))) (s (ix3 (i 0) (i 1) (0 : Fin 1))) (z (ix3 (i 0) (i 1) (0 : Fin 1)))

/-- When the reciprocal array is `1 / s` entry by entry, the two dequantized arrays are one. -/
theorem deqRecip_eq (w3 : SW3.Idx → EReal) (r s z : SQ.Idx → EReal) (hr : ∀ j, r j = Ideal.div 1 (s j)) :
    deqRecip w3 r s z = deq w3 s z := by
  funext i
  unfold deqRecip deq
  rw [hr, dqRecip_one_div]

/-- The layer's output at batch `p`, position `q`, output channel `o`. -/
def outAt (x : SX3.Idx → EReal) (D : SW2.Idx → EReal) (b : SB.Idx → EReal) (p : Fin 4) (q : Fin 2048) (o : Fin 4096) : EReal :=
  (∑ k : Fin 4096, x (ix3 p q k) * D (ix2 o k)) + b (ix1 o)

/-- The layer's output as a [4, 2048, 4096] array. -/
def out (x : SX3.Idx → EReal) (D : SW2.Idx → EReal) (b : SB.Idx → EReal) : SX3.Idx → EReal := fun i =>
  outAt x D b (i 0) (i 1) (i 2)

/-- The same contraction over the activations laid out as an [8192, 4096] matrix (row = batch · 2048 + position). -/
def mmAt (x2 : SX2.Idx → EReal) (D : SW2.Idx → EReal) (b : SB.Idx → EReal) (r : Fin 8192) (o : Fin 4096) : EReal :=
  (∑ k : Fin 4096, x2 (ix2 r k) * D (ix2 o k)) + b (ix1 o)

/-- The [8192, 4096] matrix of those sums. -/
def mm (x2 : SX2.Idx → EReal) (D : SW2.Idx → EReal) (b : SB.Idx → EReal) : SX2.Idx → EReal := fun i =>
  mmAt x2 D b (i 0) (i 1)

/-- The whole layer from the five arguments: the weights regrouped to [4096, 128, 32], dequantized, laid back out as
    [4096, 4096], and contracted with the activations. -/
def layer (h1 : SW2.ShapeCasts SW3) (h2 : SW3.ShapeCasts SW2) (x : SX3.Idx → EReal) (w : SW2.Idx → EReal)
    (b : SB.Idx → EReal) (s z : SQ.Idx → EReal) : SX3.Idx → EReal :=
  out x (shapeCast SW2 (deq (shapeCast SW3 w h1) s z) h2) b

end Cert.Quant

end
-- ==== Proof.LibAxisReads.lean ====
/-
  Reductions along ONE axis and rank-three layout steps, each read at an index given by its coordinates.

  A sum (or a maximum) along one axis of an array, read at a reduced index, ranges over the coordinates of the
  reduced axis with the other coordinates held: along the columns of a matrix [a, b] at row r it is over
  (r, k); along the middle axis of [a, b, c] at (p, q) over (p, k, q); along the last axis at (p, q)
  over (p, q, k). A maximum is the fold of max from the accumulator's value, in any order.

  A stack of m matrices [m, a, b] and the tall matrix [m * a, b] of their rows hold the same entries in the
  same row-major order: row p * a + q of the tall matrix is row q of matrix p. Inserting a unit axis moves
  nothing. A broadcast along an axis of extent one repeats the operand along it: the result at (p, q, r) reads
  the operand with 0 on each of its unit axes. General in the extents and in the element type.
-/
import Idealize.ShloMosaic.Lib.Pipeline.Value
import Idealize.ShloMosaic.Lib.ValueIdx
import Idealize.ShloMosaic.PureOps.Ideal.Laws

namespace Cert.AxisReads

open Idealize.ShloMosaic Idealize.ShloMosaic.ValueIdx

variable {α : Type}

/-! ## The reduced index with the coordinate put back -/

theorem lift_cols {a b : ℕ} (h : (⟨2, ![a, b]⟩ : Shape).Reduces [1] ⟨1, ![a]⟩) (r : Fin a)
    (k : Fin ((⟨2, ![a, b]⟩ : Shape).size 1)) : h.lift (ix1 r) k = ix2 r (⟨k.val, k.isLt⟩ : Fin b) := by
  funext c; apply Fin.ext
  fin_cases c <;> rfl

theorem lift_mid {a b c : ℕ} (h : (⟨3, ![a, b, c]⟩ : Shape).Reduces [1] ⟨2, ![a, c]⟩) (p : Fin a) (q : Fin c)
    (k : Fin ((⟨3, ![a, b, c]⟩ : Shape).size 1)) : h.lift (ix2 p q) k = ix3 p (⟨k.val, k.isLt⟩ : Fin b) q := by
  funext d; apply Fin.ext
  fin_cases d <;> rfl

theorem lift_last {a b c : ℕ} (h : (⟨3, ![a, b, c]⟩ : Shape).Reduces [2] ⟨2, ![a, b]⟩) (p : Fin a) (q : Fin b)
    (k : Fin ((⟨3, ![a, b, c]⟩ : Shape).size 2)) : h.lift (ix2 p q) k = ix3 p q (⟨k.val, k.isLt⟩ : Fin c) := by
  funext d; apply Fin.ext
  fin_cases d <;> rfl

/-! ## Sums along one axis (a kernel's f32 lane or sublane sum from the zero accumulator) -/

/-- Along the columns of [a, b], at row r: the sum over k of the entries (r, k). -/
theorem sum_cols {a b : ℕ} (src : FVec Ideal ⟨2, ![a, b]⟩ .f32) (h : (⟨2, ![a, b]⟩ : Shape).Reduces [1] ⟨1, ![a]⟩) (r : Fin a) :
    multiReduction .add [1] ⟨1, ![a]⟩ src 0x00000000#32 h (.inl rfl) rfl (ix1 r) = ∑ k : Fin b, src (ix2 r k) :=
  (Ideal.multiReduction_add_single src 0x00000000#32 h (.inl rfl) rfl (ix1 r)).trans
    (Finset.sum_congr rfl fun k _ => congrArg src (lift_cols h r k))

/-- Along the middle axis of [a, b, c], at (p, q): the sum over k of the entries (p, k, q). -/
theorem sum_mid {a b c : ℕ} (src : FVec Ideal ⟨3, ![a, b, c]⟩ .f32) (h : (⟨3, ![a, b, c]⟩ : Shape).Reduces [1] ⟨2, ![a, c]⟩)
    (p : Fin a) (q : Fin c) :
    multiReduction .add [1] ⟨2, ![a, c]⟩ src 0x00000000#32 h (.inl rfl) rfl (ix2 p q) = ∑ k : Fin b, src (ix3 p k q) :=
  (Ideal.multiReduction_add_single src 0x00000000#32 h (.inl rfl) rfl (ix2 p q)).trans
    (Finset.sum_congr rfl fun k _ => congrArg src (lift_mid h p q k))

/-- Along the last axis of [a, b, c], at (p, q): the sum over k of the entries (p, q, k). -/
theorem sum_last {a b c : ℕ} (src : FVec Ideal ⟨3, ![a, b, c]⟩ .f32) (h : (⟨3, ![a, b, c]⟩ : Shape).Reduces [2] ⟨2, ![a, b]⟩)
    (p : Fin a) (q : Fin b) :
    multiReduction .add [2] ⟨2, ![a, b]⟩ src 0x00000000#32 h (.inl rfl) rfl (ix2 p q) = ∑ k : Fin c, src (ix3 p q k) :=
  (Ideal.multiReduction_add_single src 0x00000000#32 h (.inl rfl) rfl (ix2 p q)).trans
    (Finset.sum_congr rfl fun k _ => congrArg src (lift_last h p q k))

/-! ## Maxima along the columns, from the accumulator at minus infinity -/

/-- A kernel's row maximum of [a, b] at row r: the fold of max from the accumulator's value over the entries (r, k). -/
theorem max_cols {a b : ℕ} (src : FVec Ideal ⟨2, ![a, b]⟩ .f32) (h : (⟨2, ![a, b]⟩ : Shape).Reduces [1] ⟨1, ![a]⟩) (r : Fin a) :
    multiReduction .maximumf [1] ⟨1, ![a]⟩ src 0xFF800000#32 h (.inl rfl) rfl (ix1 r)
      = (Finset.univ : Finset (Fin b)).fold max (Ideal.ofBits .f32 0xFF800000#32) (fun k => src (ix2 r k)) :=
  (Ideal.multiReduction_maximumf_single src 0xFF800000#32 h (.inl rfl) rfl (ix1 r)).trans
    (congrArg ((Finset.univ : Finset (Fin b)).fold max (Ideal.ofBits .f32 0xFF800000#32))
      (funext fun k => congrArg src (lift_cols h r k)))

/-- The host's reduce with a maximum body along the columns of [a, b], at row r, from a rank-zero initial value. -/
theorem hostMax_cols {a b : ℕ} (x : FVec Ideal ⟨2, ![a, b]⟩ .f32) (init : FVec Ideal ⟨0, ![]⟩ .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (r : Fin a) :
    Host.reduce FloatOps.maximumf x init h' hu (ix1 r)
      = (Finset.univ : Finset (Fin b)).fold max (init ix0) (fun k => x (ix2 r k)) := by
  rw [Host.reduce_eq_fold_single FloatOps.maximumf x init h' h hu (ix1 r)]
  have e0 : Shape.Idx.first hu = ix0 := funext fun d => d.elim0
  rw [e0]
  exact congrArg ((Finset.univ : Finset (Fin b)).fold max (init ix0)) (funext fun k => congrArg x (lift_cols h r k))

/-! ## A stack of matrices and the tall matrix of their rows -/

/-- The stack [m, a, b] cast to the tall matrix [n, b], n = m * a: row p * a + q is row q of matrix p. -/
theorem shapeCast_stack_tall_apply {m a b n : ℕ} (x : (⟨3, ![m, a, b]⟩ : Shape).Idx → α)
    (h : (⟨3, ![m, a, b]⟩ : Shape).ShapeCasts ⟨2, ![n, b]⟩) (r : Fin n) (p : Fin m) (q : Fin a) (d : Fin b)
    (hr : r.val = p.val * a + q.val) : shapeCast ⟨2, ![n, b]⟩ x h (ix2 r d) = x (ix3 p q d) :=
  shapeCast_apply x h _ _ (by
    rw [Shape.rowMajor_val_three, Shape.rowMajor_val_two]
    show (p.val * a + q.val) * b + d.val = r.val * b + d.val
    rw [hr])

/-- The tall matrix [n, b], n = m * a, cast to the stack [m, a, b]: row q of matrix p is row p * a + q. -/
theorem shapeCast_tall_stack_apply {m a b n : ℕ} (x : (⟨2, ![n, b]⟩ : Shape).Idx → α)
    (h : (⟨2, ![n, b]⟩ : Shape).ShapeCasts ⟨3, ![m, a, b]⟩) (r : Fin n) (p : Fin m) (q : Fin a) (d : Fin b)
    (hr : r.val = p.val * a + q.val) : shapeCast ⟨3, ![m, a, b]⟩ x h (ix3 p q d) = x (ix2 r d) :=
  shapeCast_apply x h _ _ (by
    rw [Shape.rowMajor_val_three, Shape.rowMajor_val_two]
    show r.val * b + d.val = (p.val * a + q.val) * b + d.val
    rw [hr])

/-! ## A unit axis inserted -/

/-- [a, b] cast to [a, 1, b] reads, at (i, u, j), the operand at (i, j). -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- [a, b] cast to [a, b, 1] reads, at (i, j, u), the operand at (i, j). -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-! ## Broadcasts along unit axes of a rank-three array -/

/-- [a, 1, c] broadcast to [a, b, c] reads, at (p, q, r), the operand at (p, 0, r). -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ v h (ix3 p q r) = v (ix3 p (0 : Fin 1) r) := by
  refine broadcastTo_apply v h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-- [1, b, c] broadcast to [a, b, c] reads, at (p, q, r), the operand at (0, q, r). -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ v h (ix3 p q r) = v (ix3 (0 : Fin 1) q r) := by
  refine broadcastTo_apply v h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

/-- [a, b, 1] broadcast to [a, b, c] reads, at (p, q, r), the operand at (p, q, 0). -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q (0 : Fin 1)) := by
  refine broadcastTo_apply v h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- [a, 1, 1] broadcast to [a, b, c] reads, at (p, q, r), the operand at (p, 0, 0). -/
theorem broadcastTo_a11_abc_apply {a b c : ℕ} (v : (⟨3, ![a, 1, 1]⟩ : Shape).Idx → α)
    (h : (⟨3, ![a, 1, 1]⟩ : Shape).Broadcasts ⟨3, ![a, b, c]⟩) (p : Fin a) (q : Fin b) (r : Fin c) :
    broadcastTo ⟨3, ![a, b, c]⟩ v h (ix3 p q r) = v (ix3 p (0 : Fin 1) (0 : Fin 1)) := by
  refine broadcastTo_apply v h (ix3 p q r) (ix3 p (0 : Fin 1) (0 : Fin 1)) fun ax => ?_
  match ax with
  | ⟨0, _⟩ =>
    show p.val = if a = 1 then 0 else p.val
    split
    · have := p.isLt; omega
    · rfl
  | ⟨1, _⟩ => rfl
  | ⟨2, _⟩ => rfl

end Cert.AxisReads
-- ==== Proof.DequantValue.lean ====
/-
  The value of the dequantize kernel's output array.

  The kernel walks the 4096 output channels in 8 blocks of 512 rows. At block t it holds rows 512·t … 512·t + 511 of
  the weight array [4096, 128, 32] and of the reciprocal-scale, scale and zero-point arrays [4096, 128, 1], and it
  writes the same rows of the output array. Inside a block the entry (p, g, e) is
  (clamp₀¹⁵ (round (w · r + z)) - z) · s, with w the weight at (p, g, e) and r, s, z the reciprocal scale, scale and
  zero point of group (p, g): the three [512, 128, 1] blocks are repeated along the last axis, so position e reads
  them at 0 there. Row p of block t is row 512·t + p of the arrays, on every one of the five arrays, and the other two
  coordinates are kept; so what the kernel writes at block t is block t of ONE array of shape [4096, 128, 32], the
  array `Cert.Quant.deqRecip` of the four input arrays. The 8 blocks tile the 4096 rows: row o lies in block o / 512.
  Hence the output array ends holding that array, whatever the arrays held when the kernel was entered.
-/
import proofs.«102641_j32684701122970_2_alg».proof.Proof.Gen.KernelIdeal.Frame
import proofs.«102641_j32684701122970_2_alg».proof.Proof.QuantSpec
import proofs.«102641_j32684701122970_2_alg».proof.Proof.LibAxisReads
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem
open Idealize.ShloMosaic.Pipeline (Dat)

namespace Cert.KernelIdeal.DequantValue

open Cert.KernelIdeal Cert.KernelIdeal.Gen
open Idealize.ShloMosaic.ValueIdx

/-! ## The body's arithmetic at one entry of a block -/

/-- The body's result at entry (p, g, e) of a block, from the weight block `x0` and the reciprocal-scale, scale and
    zero-point blocks `x1`, `x2`, `x3`: the dequantized weight of `x0 (p, g, e)` with group (p, g)'s three numbers.
    Regrouping a block to its own shape moves nothing, a [512, 128, 1] block repeated along the last axis reads at
    (p, g, 0), every other step acts entry by entry, and the change of format is the identity on extended reals. -/
theorem k0_pay1_apply (x0 : Vec Ideal S512x128x32 .f32) (x1 x2 x3 : Vec Ideal S512x128x1 .f32)
    (p : Fin 512) (g : Fin 128) (e : Fin 32) :
    k0_pay1 x0 x1 x2 x3 (ix3 p g e)
      = Cert.Quant.dqRecip (x0 (ix3 p g e)) (x1 (ix3 p g (0 : Fin 1))) (x2 (ix3 p g (0 : Fin 1))) (x3 (ix3 p g (0 : Fin 1))) := by
  unfold k0_pay1
  simp only [shapeCast_self]
  show (min (Ideal.ofBits .f32 0x41700000#32) (max (Ideal.ofBits .f32 0x00000000#32)
        (Ideal.liftRound Ideal.roundHalfEven (x0 (ix3 p g e) * broadcastTo S512x128x32 x1 broadcasts_S512x128x1_S512x128x32 (ix3 p g e)
          + broadcastTo S512x128x32 x3 broadcasts_S512x128x1_S512x128x32 (ix3 p g e))))
        - broadcastTo S512x128x32 x3 broadcasts_S512x128x1_S512x128x32 (ix3 p g e))
        * broadcastTo S512x128x32 x2 broadcasts_S512x128x1_S512x128x32 (ix3 p g e) = _
  rw [Cert.AxisReads.broadcastTo_ab1_abc_apply x1, Cert.AxisReads.broadcastTo_ab1_abc_apply x2,
    Cert.AxisReads.broadcastTo_ab1_abc_apply x3]
  rfl

section Region

variable (V : (c : Dev nD) → (b : Ref sig .tc) → Buf (Elt Ideal) ((c : Thread nD τ).loc b))

/-! ## Where a block sits in its array -/

/-- The zero offsets of a rank-three block, entry by entry. -/
theorem zero_off3 : (![0, 0, 0] : Fin 3 → Nat) = fun _ => 0 := funext fun a => by fin_cases a <;> rfl

/-- At each of the 8 points every one of the five arrays is at block (t, 0, 0): the row block moves with the point
    and the other two axes are whole. Decided over the 8 points. -/
theorem block_index0 : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0 :=
  (by decide +kernel : ∀ t : Fin grid0.N, _)

/-- Entry (p, g, e) of the weight block at point t is the weight array's entry (512·t + p, g, e): a block's
    coordinate on an axis is the block index times the block's extent plus the coordinate inside the block. -/
theorem iblk0_0_apply (c : Dev nD) (t : Fin cfg0.N) (p : Fin 512) (g : Fin 128) (e : Fin 32) (k : S4096x128x32.Idx)
    (hk0 : (k 0).val = t.val * 512 + p.val) (hk1 : (k 1).val = g.val) (hk2 : (k 2).val = e.val) :
    (iblk0 V c 0 t : Vec Ideal S512x128x32 .f32) (ix3 p g e) = (V c main_v0 : S4096x128x32.Idx → EReal) k := by
  obtain ⟨e0, e1, e2, -⟩ := block_index0 t
  unfold iblk0
  rw [View.read_apply]
  show V c main_v0 _ = V c main_v0 _
  congr 1
  funext a
  apply Fin.ext
  match a with
  | ⟨0, _⟩ => show win0_0.index t (0 : Fin 3) * 512 + 1 * p.val = (k 0).val; rw [e0, hk0]; omega
  | ⟨1, _⟩ => show win0_0.index t (1 : Fin 3) * 128 + 1 * g.val = (k 1).val; rw [e1, hk1]; omega
  | ⟨2, _⟩ => show win0_0.index t (2 : Fin 3) * 32 + 1 * e.val = (k 2).val; rw [e2, hk2]; omega

/-- Entry (p, g, 0) of the reciprocal-scale block at point t is that array's entry (512·t + p, g, 0); the last axis
    has extent one, so any index with those first two coordinates is that entry. -/
theorem iblk0_1_apply (c : Dev nD) (t : Fin cfg0.N) (p : Fin 512) (g : Fin 128) (k : S4096x128x1.Idx)
    (hk0 : (k 0).val = t.val * 512 + p.val) (hk1 : (k 1).val = g.val) :
    (iblk0 V c 1 t : Vec Ideal S512x128x1 .f32) (ix3 p g (0 : Fin 1)) = (V c main_v2 : S4096x128x1.Idx → EReal) k := by
  obtain ⟨-, -, -, e0, e1, e2, -⟩ := block_index0 t
  have hk2 : (k 2).val < 1 := (k 2).isLt
  unfold iblk0
  rw [View.read_apply]
  show V c main_v2 _ = V c main_v2 _
  congr 1
  funext a
  apply Fin.ext
  match a with
  | ⟨0, _⟩ => show win0_1.index t (0 : Fin 3) * 512 + 1 * p.val = (k 0).val; rw [e0, hk0]; omega
  | ⟨1, _⟩ => show win0_1.index t (1 : Fin 3) * 128 + 1 * g.val = (k 1).val; rw [e1, hk1]; omega
  | ⟨2, _⟩ => show win0_1.index t (2 : Fin 3) * 1 + 1 * (0 : Fin 1).val = (k 2).val; rw [e2]; show 0 * 1 + 1 * 0 = (k 2).val; omega

/-- The same for the scale block. -/
theorem iblk0_2_apply (c : Dev nD) (t : Fin cfg0.N) (p : Fin 512) (g : Fin 128) (k : S4096x128x1.Idx)
    (hk0 : (k 0).val = t.val * 512 + p.val) (hk1 : (k 1).val = g.val) :
    (iblk0 V c 2 t : Vec Ideal S512x128x1 .f32) (ix3 p g (0 : Fin 1)) = (V c main_arg3 : S4096x128x1.Idx → EReal) k := by
  obtain ⟨-, -, -, -, -, -, e0, e1, e2, -⟩ := block_index0 t
  have hk2 : (k 2).val < 1 := (k 2).isLt
  unfold iblk0
  rw [View.read_apply]
  show V c main_arg3 _ = V c main_arg3 _
  congr 1
  funext a
  apply Fin.ext
  match a with
  | ⟨0, _⟩ => show win0_2.index t (0 : Fin 3) * 512 + 1 * p.val = (k 0).val; rw [e0, hk0]; omega
  | ⟨1, _⟩ => show win0_2.index t (1 : Fin 3) * 128 + 1 * g.val = (k 1).val; rw [e1, hk1]; omega
  | ⟨2, _⟩ => show win0_2.index t (2 : Fin 3) * 1 + 1 * (0 : Fin 1).val = (k 2).val; rw [e2]; show 0 * 1 + 1 * 0 = (k 2).val; omega

/-- The same for the zero-point block. -/
theorem iblk0_3_apply (c : Dev nD) (t : Fin cfg0.N) (p : Fin 512) (g : Fin 128) (k : S4096x128x1.Idx)
    (hk0 : (k 0).val = t.val * 512 + p.val) (hk1 : (k 1).val = g.val) :
    (iblk0 V c 3 t : Vec Ideal S512x128x1 .f32) (ix3 p g (0 : Fin 1)) = (V c main_arg4 : S4096x128x1.Idx → EReal) k := by
  obtain ⟨-, -, -, -, -, -, -, -, -, e0, e1, e2, -⟩ := block_index0 t
  have hk2 : (k 2).val < 1 := (k 2).isLt
  unfold iblk0
  rw [View.read_apply]
  show V c main_arg4 _ = V c main_arg4 _
  congr 1
  funext a
  apply Fin.ext
  match a with
  | ⟨0, _⟩ => show win0_3.index t (0 : Fin 3) * 512 + 1 * p.val = (k 0).val; rw [e0, hk0]; omega
  | ⟨1, _⟩ => show win0_3.index t (1 : Fin 3) * 128 + 1 * g.val = (k 1).val; rw [e1, hk1]; omega
  | ⟨2, _⟩ => show win0_3.index t (2 : Fin 3) * 1 + 1 * (0 : Fin 1).val = (k 2).val; rw [e2]; show 0 * 1 + 1 * 0 = (k 2).val; omega

/-! ## What one point writes, and the whole array -/

/-- The body's result at entry (p, g, e) of the blocks at point t is the dequantized array's entry at the index i
    with coordinates (512·t + p, g, e): the weight is read there, and the group's three numbers at
    (512·t + p, g, 0), which is where the dequantized array reads them for i. -/
theorem deq_at0 (c : Dev nD) (t : Fin cfg0.N) (p : Fin 512) (g : Fin 128) (e : Fin 32) (i : S4096x128x32.Idx)
    (hi0 : (i 0).val = t.val * 512 + p.val) (hi1 : (i 1).val = g.val) (hi2 : (i 2).val = e.val) :
    k0_pay1 (iblk0 V c 0 t) (iblk0 V c 1 t) (iblk0 V c 2 t) (iblk0 V c 3 t) (ix3 p g e)
      = Cert.Quant.deqRecip (V c main_v0) (V c main_v2) (V c main_arg3) (V c main_arg4) i := by
  rw [k0_pay1_apply]
  show _ = Cert.Quant.dqRecip (V c main_v0 i) (V c main_v2 (ix3 (i 0) (i 1) (0 : Fin 1)))
    (V c main_arg3 (ix3 (i 0) (i 1) (0 : Fin 1))) (V c main_arg4 (ix3 (i 0) (i 1) (0 : Fin 1)))
  rw [iblk0_0_apply V c t p g e i hi0 hi1 hi2, iblk0_1_apply V c t p g (ix3 (i 0) (i 1) (0 : Fin 1)) hi0 hi1,
    iblk0_2_apply V c t p g (ix3 (i 0) (i 1) (0 : Fin 1)) hi0 hi1, iblk0_3_apply V c t p g (ix3 (i 0) (i 1) (0 : Fin 1)) hi0 hi1]

/-- What point t writes back to the output array is block t of the dequantized array: the body stores its result
    over its whole block, and entry (p, g, e) of that block sits at (512·t + p, g, e) of the output array. -/
theorem flushed0_4_eq (c : Dev nD) (t : Fin cfg0.N) :
    (dat0 V c).flushed 4 t = ((cfg0.win 4).blk t).view.read (Elt Ideal)
      (Cert.Quant.deqRecip (V c main_v0) (V c main_v2) (V c main_arg3) (V c main_arg4)) := by
  show (cfg0.win 4).cut (grid0.coords t) ((dat0 V c).after 4 t) = _
  rw [after0_4]
  unfold out0_4
  rw [View.canon_unit_zero zero_off3]
  simp only [View.ld_unit_zero (S := S512x128x32) zero_off3, View.ld_unit_zero (S := S512x128x1) zero_off3]
  obtain ⟨-, -, -, -, -, -, -, -, -, -, -, -, e0, e1, e2⟩ := block_index0 t
  funext j
  obtain ⟨p, g, e, rfl⟩ : ∃ (p : Fin 512) (g : Fin 128) (e : Fin 32), j = ix3 p g e := ⟨j 0, j 1, j 2, eq_ix3 j⟩
  rw [View.read_apply]
  refine deq_at0 V c t p g e _ ?_ ?_ ?_
  · show win0_4.index t (0 : Fin 3) * 512 + 1 * p.val = t.val * 512 + p.val; rw [e0]; omega
  · show win0_4.index t (1 : Fin 3) * 128 + 1 * g.val = g.val; rw [e1]; omega
  · show win0_4.index t (2 : Fin 3) * 32 + 1 * e.val = e.val; rw [e2]; omega

/-- Every index (o, g, e) of the output array lies in the block of point o / 512: that block holds the rows
    512·(o / 512) … 512·(o / 512) + 511 and all of the other two axes. -/
theorem covered0_4 (i : S4096x128x32.Idx) :
    ∃ t : Fin cfg0.N, (cfg0.win 4).flush t = true ∧ i ∈ ((cfg0.win 4).blk t).view.set := by
  have hN : cfg0.N = 8 := N_0
  have h0 : (i 0).val < 4096 := (i 0).isLt
  have h1 : (i 1).val < 128 := (i 1).isLt
  have h2 : (i 2).val < 32 := (i 2).isLt
  obtain ⟨t, ht⟩ : ∃ t : Fin cfg0.N, t.val = (i 0).val / 512 := ⟨⟨(i 0).val / 512, by omega⟩, rfl⟩
  obtain ⟨-, -, -, -, -, -, -, -, -, -, -, -, e0, e1, e2⟩ := block_index0 t
  refine ⟨t, flush0_4 t, ?_⟩
  show i ∈ ((View.whole main_v3).slice (win0_4.rect t)).set
  rw [View.set_slice_whole, Rect.mem_set_unit]
  intro a
  match a with
  | ⟨0, _⟩ => show win0_4.index t (0 : Fin 3) * 512 ≤ (i 0).val ∧ (i 0).val < win0_4.index t (0 : Fin 3) * 512 + 512; rw [e0]; omega
  | ⟨1, _⟩ => show win0_4.index t (1 : Fin 3) * 128 ≤ (i 1).val ∧ (i 1).val < win0_4.index t (1 : Fin 3) * 128 + 128; rw [e1]; omega
  | ⟨2, _⟩ => show win0_4.index t (2 : Fin 3) * 32 ≤ (i 2).val ∧ (i 2).val < win0_4.index t (2 : Fin 3) * 32 + 32; rw [e2]; omega

end Region

/-- The output array after the 8 points is the dequantized array of the weight, reciprocal-scale, scale and
    zero-point arrays as the kernel finds them: every point writes its block of that one array, and the blocks
    cover every index. -/
theorem region0_value (V : (c : Dev nD) → (b : Ref sig .tc) → Buf (Elt Ideal) ((c : Thread nD τ).loc b)) (c : Dev nD) :
    (dat0 (F := Ideal) V c).arrAt 4 cfg0.N
      = Cert.Quant.deqRecip (V c main_v0) (V c main_v2) (V c main_arg3) (V c main_arg4) :=
  (dat0 V c).arrAt_eq_of_cover 4 _ (fun t _ => flushed0_4_eq V c t) covered0_4

end Cert.KernelIdeal.DequantValue

end
-- ==== Proof.MatmulBody.lean ====
/-
  One grid point of the K-blocked matrix product, read at an index.

  The body holds a [2048, 2048] output block.  At the first K-block it first fills the block with the bias row (every
  row of the block is the 2048 bias entries of the block's columns); at every K-block it adds, to entry (p, q) of what
  the block holds, the sum over the 1024 channels l of the K-block of x (p, l) · w (q, l), where x is the [2048, 1024]
  block of activations and w the [2048, 1024] block of dequantized weights (both contracted along their last axis).
-/
import proofs.«102641_j32684701122970_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.MatmulBody

open Cert.KernelIdeal Cert.KernelIdeal.Gen

/-- The product's dimension numbers: both operands contract their axis 1, the rows of each give the output's two axes. -/
abbrev dims := dot_S2048x1024_S2048x1024_S2048x2048_1_1_0_0_n_n

theorem lhs_row (j : S2048x2048.Idx) (k : dims.contr.Idx) : (dims.lhsIdx j k 0).val = (j 0).val := by
  unfold DotDims.lhsIdx
  rw [dif_neg (show ¬(0 : Fin S2048x1024.rank) ∈ dims.lhsBatch by decide), dif_pos (show (0 : Fin S2048x1024.rank) ∈ dims.lhsNonContracting by decide)]
  rfl

theorem rhs_row (j : S2048x2048.Idx) (k : dims.contr.Idx) : (dims.rhsIdx j k 0).val = (j 1).val := by
  unfold DotDims.rhsIdx
  rw [dif_neg (show ¬(0 : Fin S2048x1024.rank) ∈ dims.rhsBatch by decide), dif_pos (show (0 : Fin S2048x1024.rank) ∈ dims.rhsNonContracting by decide)]
  rfl

/-- The product into the zero block at (p, q): the sum over the 1024 channels of x (p, l) · w (q, l). -/
theorem product_apply (x w : FVec Ideal S2048x1024 .bf16) (p q : Fin 2048) :
    matmul (F := Ideal) dims none x w (constant S2048x2048 .f32 0x00000000#32) (ix2 p q)
      = ∑ l : Fin 1024, x (ix2 p l) * w (ix2 q l) := by
  simp only [matmul]
  rw [Ideal.matmul_constant_zero_apply, ← Equiv.sum_comp (contrEquiv1 dims 1024 rfl rfl).symm]
  refine Finset.sum_congr rfl fun l _ => ?_
  have hk := contrEquiv1_symm_val dims 1024 rfl rfl l
  have el : dims.lhsIdx (ix2 p q) ((contrEquiv1 dims 1024 rfl rfl).symm l) = ix2 p l := funext fun a => Fin.ext (by
    match a with
    | ⟨0, _⟩ => exact lhs_row _ _
    | ⟨1, _⟩ => exact (dims.lhsIdx_val_of_single rfl _ _).trans hk)
  have er : dims.rhsIdx (ix2 p q) ((contrEquiv1 dims 1024 rfl rfl).symm l) = ix2 q l := funext fun a => Fin.ext (by
    match a with
    | ⟨0, _⟩ => exact rhs_row _ _
    | ⟨1, _⟩ => exact (dims.rhsIdx_val_of_single rfl _ _).trans hk)
  rw [el, er]

/-- The accumulating step at (p, q): what the block held there plus the K-block's partial sum. -/
theorem step_apply (acc : Vec Ideal S2048x2048 .f32) (x w : Vec Ideal S2048x1024 .bf16) (p q : Fin 2048) :
    k1_pay2 (F := Ideal) acc x w (ix2 p q) = acc (ix2 p q) + ∑ l : Fin 1024, x (ix2 p l) * w (ix2 q l) := by
  unfold k1_pay2
  simp only [shapeCast_self]
  exact congrArg (acc (ix2 p q) + ·) (product_apply x w p q)

/-- The bias fill at (p, q): the bias block's entry q, whatever the row p. -/
theorem fill_apply (b : Vec Ideal S2048 .f32) (p q : Fin 2048) : k1_pay1 (F := Ideal) b (ix2 p q) = b (ix1 q) := by
  unfold k1_pay1
  simp only [shapeCast_self]
  rw [broadcastTo_1b_ab_apply, shapeCast_a_1a_apply]

/-! ## What each case of the body leaves in the output block -/

variable {F : FTy → Type} [FloatOps F]

theorem zero_offsets : (![0, 0] : Fin 2 → Nat) = fun _ => 0 := funext fun a => by fin_cases a <;> rfl

/-- At a later K-block the body leaves, in the output block holding `xo`, the accumulating step of `xo` with the two
    operand blocks: its one store covers the block, and its loads read the whole buffers. -/
theorem later_block (c : Dev nD) (i : grid1.Coords) (a3 : Memref sig .tc .vmem S2048x1024 .bf16) (h3 : a3.IsWhole)
    (a4 : Memref sig .tc .vmem S2048x1024 .bf16) (h4 : a4.IsWhole) (a5 : Memref sig .tc .vmem S2048 .f32) (h5 : a5.IsWhole)
    (a6 : Memref sig .tc .vmem S2048x2048 .f32) (h6 : a6.IsWhole) (hc : ¬cond1_0 i)
    (x0 x1 : Vec F S2048x1024 .bf16) (x2 : Vec F S2048 .f32) (xo : Vec F S2048x2048 .f32) :
    out1_B_3 c i a3 h3 a4 h4 a5 h5 a6 h6 hc x0 x1 x2 xo = k1_pay2 xo x0 x1 := by
  unfold out1_B_3
  rw [View.read_writes_eq_canon _ _ _ (cover1_B_3 c i a3 h3 a4 h4 a5 h5 a6 h6 hc x0 x1 x2 xo)]
  unfold kernelRun1_B
  dsimp only
  rw [View.canon_unit_zero zero_offsets]
  simp only [View.readAt_eq_ld, h3.read_unread, h4.read_unread, h6.read_unread, View.ld_unit_zero (S := S2048x1024) zero_offsets,
    View.ld_unit_zero (S := S2048x2048) zero_offsets]

/-- At the first K-block the body stores the bias fill, reads it back, and leaves the accumulating step of the fill with
    the two operand blocks. -/
theorem first_block (c : Dev nD) (i : grid1.Coords) (a3 : Memref sig .tc .vmem S2048x1024 .bf16) (h3 : a3.IsWhole)
    (a4 : Memref sig .tc .vmem S2048x1024 .bf16) (h4 : a4.IsWhole) (a5 : Memref sig .tc .vmem S2048 .f32) (h5 : a5.IsWhole)
    (a6 : Memref sig .tc .vmem S2048x2048 .f32) (h6 : a6.IsWhole) (hc : cond1_0 i)
    (x0 x1 : Vec F S2048x1024 .bf16) (x2 : Vec F S2048 .f32) :
    out1_A_3 c i a3 h3 a4 h4 a5 h5 a6 h6 hc x0 x1 x2 = k1_pay2 (k1_pay1 x2) x0 x1 := by
  unfold out1_A_3
  rw [View.read_writes_eq_canon _ _ _ (cover1_A_3 c i a3 h3 a4 h4 a5 h5 a6 h6 hc x0 x1 x2)]
  unfold kernelRun1_A
  dsimp only
  sl_unfold_words
  rw [View.canon_cons_unit_zero (S := S2048x2048) zero_offsets, View.readCov_unit_zero (S := S2048x2048) _ zero_offsets]
  simp only [View.readAt_eq_ld, h3.read_unread, h4.read_unread, h5.read_unread, View.ld_unit_zero (S := S2048x1024) zero_offsets,
    View.ld_unit_zero (S := S2048) (funext fun a => by fin_cases a; rfl : (![0] : Fin 1 → Nat) = fun _ => 0)]

end Cert.KernelIdeal.MatmulBody

end
-- ==== Proof.MatmulValue.lean ====
/-
  What the K-blocked matrix product leaves in its [8192, 4096] output array, for any contents of the buffers on entry.

  The grid is 4 row blocks × 2 column blocks × 4 K-blocks, point n = 8 i + 4 j + k.  Point n works on rows
  2048 i … 2048 i + 2047 of the activations, rows 2048 j … of the dequantized weights (the output's columns), and channels
  1024 k … 1024 k + 1023 of both.  The output block (i, j) stays in place over its four K-blocks and is written back after
  the last.  By induction on the point, after point n entry (p, q) of the block holds the bias at column 2048 j + q plus
  the sum over the channels below 1024 (k + 1) of activation · weight; after the last K-block that is the whole
  contraction over the 4096 channels.
-/
import proofs.«102641_j32684701122970_2_alg».proof.Proof.MatmulBody
import proofs.«102641_j32684701122970_2_alg».proof.Proof.QuantSpec

noncomputable section

open Idealize.ShloMosaic Idealize.ShloMosaic.TcCoe Idealize.SL.Sem Idealize.ShloMosaic.ValueIdx
open Idealize.ShloMosaic.Pipeline (Dat)

namespace Cert.KernelIdeal.MatmulValue

open Cert.KernelIdeal Cert.KernelIdeal.Gen Cert.KernelIdeal.MatmulBody

variable (V : (c : Dev nD) → (b : Ref sig .tc) → Buf (Elt Ideal) ((c : Thread nD τ).loc b)) (c : Dev nD)

/-- The activations [8192, 4096], the dequantized weights [4096, 4096] and the bias [4096] as the region finds them. -/
abbrev X : S8192x4096.Idx → EReal := V c main_v6
abbrev D : S4096x4096.Idx → EReal := V c main_v4
abbrev B : S4096.Idx → EReal := V c main_arg2

/-- The product of activation (r, u) and weight (o, u), over all naturals (zero off the arrays). -/
def term (r o u : ℕ) : EReal :=
  if h : r < 8192 ∧ o < 4096 ∧ u < 4096 then X V c (ix2 ⟨r, h.1⟩ ⟨u, h.2.2⟩) * D V c (ix2 ⟨o, h.2.1⟩ ⟨u, h.2.2⟩) else 0

/-- The bias at column o, over all naturals. -/
def biasAt (o : ℕ) : EReal := if h : o < 4096 then B V c (ix1 ⟨o, h⟩) else 0

/-- Where each window's block sits at point t: row block t / 8, column block t / 4 mod 2, K-block t mod 4. -/
theorem block_index : ∀ t : Fin cfg1.N, win1_0.index t 0 = t.val / 8 ∧ win1_0.index t 1 = t.val % 4
    ∧ win1_1.index t 0 = t.val / 4 % 2 ∧ win1_1.index t 1 = t.val % 4 ∧ win1_2.index t 0 = t.val / 4 % 2
    ∧ win1_3.index t 0 = t.val / 8 ∧ win1_3.index t 1 = t.val / 4 % 2 :=
  (by decide +kernel : ∀ t : Fin grid1.N, win1_0.index t 0 = t.val / 8 ∧ win1_0.index t 1 = t.val % 4
    ∧ win1_1.index t 0 = t.val / 4 % 2 ∧ win1_1.index t 1 = t.val % 4 ∧ win1_2.index t 0 = t.val / 4 % 2
    ∧ win1_3.index t 0 = t.val / 8 ∧ win1_3.index t 1 = t.val / 4 % 2)

theorem point_lt (t : Fin cfg1.N) : t.val < 32 := lt_of_lt_of_eq t.isLt (show cfg1.N = 32 from N_1)

/-- The activations' block at point t, entry (p, l), is the array's entry (2048 (t / 8) + p, 1024 (t mod 4) + l). -/
theorem x_block (t : Fin cfg1.N) (p : Fin 2048) (l : Fin 1024) (r : Fin 8192) (u : Fin 4096)
    (hr : r.val = t.val / 8 * 2048 + p.val) (hu : u.val = t.val % 4 * 1024 + l.val) :
    (iblk1 V c 0 t : Vec Ideal S2048x1024 .bf16) (ix2 p l) = X V c (ix2 r u) := by
  unfold iblk1
  rw [View.read_apply]
  show V c main_v6 (((cfg1.win 0).blk t).view.emb (ix2 p l)) = V c main_v6 (ix2 r u)
  refine congrArg (V c main_v6) (funext fun a => Fin.ext ?_)
  match a with
  | ⟨0, _⟩ => show win1_0.index t 0 * 2048 + 1 * p.val = r.val; rw [(block_index t).1, hr]; omega
  | ⟨1, _⟩ => show win1_0.index t 1 * 1024 + 1 * l.val = u.val; rw [(block_index t).2.1, hu]; omega

/-- The weights' block at point t, entry (q, l), is the array's entry (2048 (t / 4 mod 2) + q, 1024 (t mod 4) + l). -/
theorem w_block (t : Fin cfg1.N) (q : Fin 2048) (l : Fin 1024) (o u : Fin 4096)
    (ho : o.val = t.val / 4 % 2 * 2048 + q.val) (hu : u.val = t.val % 4 * 1024 + l.val) :
    (iblk1 V c 1 t : Vec Ideal S2048x1024 .bf16) (ix2 q l) = D V c (ix2 o u) := by
  unfold iblk1
  rw [View.read_apply]
  show V c main_v4 (((cfg1.win 1).blk t).view.emb (ix2 q l)) = V c main_v4 (ix2 o u)
  refine congrArg (V c main_v4) (funext fun a => Fin.ext ?_)
  match a with
  | ⟨0, _⟩ => show win1_1.index t 0 * 2048 + 1 * q.val = o.val; rw [(block_index t).2.2.1, ho]; omega
  | ⟨1, _⟩ => show win1_1.index t 1 * 1024 + 1 * l.val = u.val; rw [(block_index t).2.2.2.1, hu]; omega

/-- The bias block at point t, entry q, is the bias at column 2048 (t / 4 mod 2) + q. -/
theorem b_block (t : Fin cfg1.N) (q : Fin 2048) (o : Fin 4096) (ho : o.val = t.val / 4 % 2 * 2048 + q.val) :
    (iblk1 V c 2 t : Vec Ideal S2048 .f32) (ix1 q) = B V c (ix1 o) := by
  unfold iblk1
  rw [View.read_apply]
  show V c main_arg2 (((cfg1.win 2).blk t).view.emb (ix1 q)) = V c main_arg2 (ix1 o)
  refine congrArg (V c main_arg2) (funext fun a => Fin.ext ?_)
  match a with
  | ⟨0, _⟩ => show win1_2.index t 0 * 2048 + 1 * q.val = o.val; rw [(block_index t).2.2.2.2.1, ho]; omega

/-- The accumulating step at point t, entry (p, q): the K-block's 1024 products added to what the block held. -/
theorem step_point (t : Fin cfg1.N) (acc : Vec Ideal S2048x2048 .f32) (p q : Fin 2048) :
    k1_pay2 (F := Ideal) acc (iblk1 V c 0 t) (iblk1 V c 1 t) (ix2 p q)
      = acc (ix2 p q) + ∑ l ∈ Finset.range 1024, term V c (t.val / 8 * 2048 + p.val) (t.val / 4 % 2 * 2048 + q.val) (t.val % 4 * 1024 + l) := by
  have hN := point_lt t
  refine (step_apply acc (iblk1 V c 0 t) (iblk1 V c 1 t) p q).trans (congrArg (acc (ix2 p q) + ·) ?_)
  rw [← Fin.sum_univ_eq_sum_range (fun l => term V c (t.val / 8 * 2048 + p.val) (t.val / 4 % 2 * 2048 + q.val) (t.val % 4 * 1024 + l)) 1024]
  refine Finset.sum_congr rfl fun l _ => ?_
  have hl := l.isLt
  have hp := p.isLt
  have hq := q.isLt
  have hb : t.val / 8 * 2048 + p.val < 8192 ∧ t.val / 4 % 2 * 2048 + q.val < 4096 ∧ t.val % 4 * 1024 + l.val < 4096 :=
    ⟨by omega, by omega, by omega⟩
  unfold term
  rw [dif_pos hb]
  rw [x_block V c t p l ⟨_, hb.1⟩ ⟨_, hb.2.2⟩ rfl rfl, w_block V c t q l ⟨_, hb.2.1⟩ ⟨_, hb.2.2⟩ rfl rfl]

/-- The bias fill at point t, entry (p, q). -/
theorem fill_point (t : Fin cfg1.N) (p q : Fin 2048) :
    k1_pay1 (F := Ideal) (iblk1 V c 2 t) (ix2 p q) = biasAt V c (t.val / 4 % 2 * 2048 + q.val) := by
  have hN := point_lt t
  have hq := q.isLt
  have hb : t.val / 4 % 2 * 2048 + q.val < 4096 := by omega
  refine (fill_apply (iblk1 V c 2 t) p q).trans ?_
  unfold biasAt
  rw [dif_pos hb]
  exact b_block V c t q ⟨_, hb⟩ rfl

/-- THE RUNNING SUM.  After point n the output's staging block holds, at (p, q), the bias at its column plus the
    products over the channels of the K-blocks so far. -/
theorem running_sum : ∀ (n : ℕ) (h : n < cfg1.N) (p q : Fin 2048),
    outsAt1 V c n h (ix2 p q) = biasAt V c (n / 4 % 2 * 2048 + q.val)
      + ∑ u ∈ Finset.range ((n % 4 + 1) * 1024), term V c (n / 8 * 2048 + p.val) (n / 4 % 2 * 2048 + q.val) u
  | 0, h, p, q => by
    rw [outsAt1_A V c ⟨0, h⟩ rfl, first_block]
    refine (step_point V c ⟨0, h⟩ _ p q).trans ?_
    rw [fill_point V c ⟨0, h⟩ p q]
    show _ + ∑ l ∈ Finset.range 1024, term V c (0 / 8 * 2048 + p.val) (0 / 4 % 2 * 2048 + q.val) (0 % 4 * 1024 + l) = _
    simp only [Nat.zero_mod, Nat.zero_mul, Nat.zero_add, Nat.one_mul]
  | n + 1, h, p, q => by
    have hN : n + 1 < 32 := lt_of_lt_of_eq h (show cfg1.N = 32 from N_1)
    by_cases h0 : (n + 1) % 4 = 0
    · rw [outsAt1_A V c ⟨n + 1, h⟩ h0, first_block]
      refine (step_point V c ⟨n + 1, h⟩ _ p q).trans ?_
      rw [fill_point V c ⟨n + 1, h⟩ p q]
      show _ + ∑ l ∈ Finset.range 1024, term V c ((n + 1) / 8 * 2048 + p.val) ((n + 1) / 4 % 2 * 2048 + q.val) ((n + 1) % 4 * 1024 + l) = _
      rw [h0]
      simp only [Nat.zero_mul, Nat.zero_add, Nat.one_mul]
    · have hB : ¬(⟨n + 1, h⟩ : Fin cfg1.N).val % 4 = 0 := h0
      rw [outsAt1_B V c ⟨n + 1, h⟩ hB, later_block]
      refine (step_point V c ⟨n + 1, h⟩ _ p q).trans ?_
      show outsAt1 V c n _ (ix2 p q) + ∑ l ∈ Finset.range 1024, term V c ((n + 1) / 8 * 2048 + p.val) ((n + 1) / 4 % 2 * 2048 + q.val) ((n + 1) % 4 * 1024 + l) = _
      rw [running_sum n (Nat.lt_of_succ_lt h) p q]
      have e1 : (n + 1) / 8 = n / 8 := by omega
      have e2 : (n + 1) / 4 % 2 = n / 4 % 2 := by omega
      have e3 : (n + 1) % 4 = n % 4 + 1 := by omega
      rw [e1, e2, e3, show (n % 4 + 1 + 1) * 1024 = (n % 4 + 1) * 1024 + 1024 from by omega, Finset.sum_range_add, add_assoc]

/-! ## From the blocks to the array -/

/-- The contraction the array ends holding: entry (r, o) is the sum over the 4096 channels plus the bias at o. -/
abbrev result : S8192x4096.Idx → EReal := Cert.Quant.mm (X V c) (D V c) (B V c)

/-- After the LAST K-block of a block's run the running sum is the whole contraction. -/
theorem last_block (t : Fin cfg1.N) (h3 : t.val % 4 = 3) (p q : Fin 2048) (r : Fin 8192) (o : Fin 4096)
    (hr : r.val = t.val / 8 * 2048 + p.val) (ho : o.val = t.val / 4 % 2 * 2048 + q.val) :
    outsAt1 V c t.val t.isLt (ix2 p q) = Cert.Quant.mmAt (X V c) (D V c) (B V c) r o := by
  rw [running_sum V c t.val t.isLt p q, h3, ← hr, ← ho]
  unfold Cert.Quant.mmAt
  rw [add_comm]
  have hrl := r.isLt
  have hol := o.isLt
  refine congr (congrArg HAdd.hAdd ?_) ?_
  · rw [show (3 + 1) * 1024 = 4096 from rfl, ← Fin.sum_univ_eq_sum_range (fun u => term V c r.val o.val u) 4096]
    refine Finset.sum_congr rfl fun k _ => ?_
    unfold term
    rw [dif_pos ⟨hrl, hol, k.isLt⟩]
  · unfold biasAt
    rw [dif_pos hol]

/-- WHAT A WRITING POINT WRITES BACK is its block of the contraction: the points that write are the last K-blocks. -/
theorem flushed_eq (t : Fin cfg1.N) (hf : (cfg1.win 3).flush t = true) :
    (dat1 V c).flushed 3 t = ((cfg1.win 3).blk t).view.read (Elt Ideal) (result V c) := by
  have h3 : t.val % 4 = 3 := (flush1_3 t).mp hf
  have hN := point_lt t
  have key : (outsAt1 V c t.val t.isLt : Vec Ideal S2048x2048 .f32)
      = fun y : S2048x2048.Idx => result V c (((cfg1.win 3).blk t).view.emb y) := by
    funext y
    obtain ⟨p, q, rfl⟩ : ∃ (p : Fin 2048) (q : Fin 2048), y = ix2 p q := ⟨y 0, y 1, eq_ix2 y⟩
    have hp := p.isLt
    have hq := q.isLt
    have hemb : ((cfg1.win 3).blk t).view.emb (ix2 p q)
        = ix2 (⟨t.val / 8 * 2048 + p.val, by omega⟩ : Fin 8192) (⟨t.val / 4 % 2 * 2048 + q.val, by omega⟩ : Fin 4096) :=
      funext fun a => Fin.ext (by
        match a with
        | ⟨0, _⟩ => show win1_3.index t 0 * 2048 + 1 * p.val = t.val / 8 * 2048 + p.val; rw [(block_index t).2.2.2.2.2.1]; omega
        | ⟨1, _⟩ => show win1_3.index t 1 * 2048 + 1 * q.val = t.val / 4 % 2 * 2048 + q.val; rw [(block_index t).2.2.2.2.2.2]; omega)
    rw [hemb]
    exact last_block V c t h3 p q _ _ rfl rfl
  show (cfg1.win 3).cut (grid1.coords t) ((dat1 V c).after 3 t) = _
  rw [after1_3]
  exact key

/-- An index of the array is in point t's block iff each coordinate is in the block's range on its axis. -/
theorem mem_blk (t : Fin cfg1.N) (i : S8192x4096.Idx) :
    i ∈ ((cfg1.win 3).blk t).view.set ↔ ∀ a : Fin 2, win1_3.index t a * S2048x2048.size a ≤ (i a).val ∧ (i a).val < win1_3.index t a * S2048x2048.size a + S2048x2048.size a := by
  show i ∈ ((View.whole main_v7).slice (win1_3.rect t)).set ↔ _
  rw [View.set_slice_whole, Rect.mem_set_unit]
  exact Iff.rfl

/-- Every entry (r, o) lies in the block of the writing point 8 (r / 2048) + 4 (o / 2048) + 3. -/
theorem cover (i : S8192x4096.Idx) : ∃ t : Fin cfg1.N, (cfg1.win 3).flush t = true ∧ i ∈ ((cfg1.win 3).blk t).view.set := by
  have h0 : (i 0).val < 8192 := (i 0).isLt
  have h1 : (i 1).val < 4096 := (i 1).isLt
  have hn : (i 0).val / 2048 * 8 + (i 1).val / 2048 * 4 + 3 < cfg1.N := by rw [show cfg1.N = 32 from N_1]; omega
  refine ⟨⟨(i 0).val / 2048 * 8 + (i 1).val / 2048 * 4 + 3, hn⟩, (flush1_3 _).mpr (by show ((i 0).val / 2048 * 8 + (i 1).val / 2048 * 4 + 3) % 4 = 3; omega), ?_⟩
  rw [mem_blk]
  obtain ⟨-, -, -, -, -, e0, e1⟩ := block_index ⟨(i 0).val / 2048 * 8 + (i 1).val / 2048 * 4 + 3, hn⟩
  have e0' : win1_3.index ⟨(i 0).val / 2048 * 8 + (i 1).val / 2048 * 4 + 3, hn⟩ 0 = ((i 0).val / 2048 * 8 + (i 1).val / 2048 * 4 + 3) / 8 := e0
  have e1' : win1_3.index ⟨(i 0).val / 2048 * 8 + (i 1).val / 2048 * 4 + 3, hn⟩ 1 = ((i 0).val / 2048 * 8 + (i 1).val / 2048 * 4 + 3) / 4 % 2 := e1
  intro a
  match a with
  | ⟨0, _⟩ =>
    show win1_3.index ⟨(i 0).val / 2048 * 8 + (i 1).val / 2048 * 4 + 3, hn⟩ 0 * 2048 ≤ (i 0).val ∧ (i 0).val < win1_3.index ⟨(i 0).val / 2048 * 8 + (i 1).val / 2048 * 4 + 3, hn⟩ 0 * 2048 + 2048
    rw [e0']; omega
  | ⟨1, _⟩ =>
    show win1_3.index ⟨(i 0).val / 2048 * 8 + (i 1).val / 2048 * 4 + 3, hn⟩ 1 * 2048 ≤ (i 1).val ∧ (i 1).val < win1_3.index ⟨(i 0).val / 2048 * 8 + (i 1).val / 2048 * 4 + 3, hn⟩ 1 * 2048 + 2048
    rw [e1']; omega

/-- THE ARRAY after the region: the contraction of the activations with the dequantized weights, plus the bias. -/
theorem region1_value : (dat1 (F := Ideal) V c).arrAt 3 cfg1.N = Cert.Quant.mm (V c main_v6) (V c main_v4) (V c main_arg2) :=
  (dat1 V c).arrAt_eq_of_cover 3 (result V c) (fun t hf => flushed_eq V c t hf) (cover)

end Cert.KernelIdeal.MatmulValue

end
-- ==== Proof.Relayout.lean ====
/-
  Two layout facts about the quantized linear layer, over the extended reals.

  The activations [4, 2048, 4096] and the tall matrix [8192, 4096] of their rows hold the same entries in the same
  row-major order: row p · 2048 + q of the tall matrix is the row at batch `p`, position `q`.  Hence the matrix of
  contractions `∑ k, X (r, k) · D (o, k) + b o` over the tall matrix, regrouped to [4, 2048, 4096], is the layer's
  output `∑ k, x (p, q, k) · D (o, k) + b o`.

  The array of reciprocal scales is the constant one, repeated over every entry, divided by the scales: `1 / s` entry
  by entry.
-/
import proofs.«102641_j32684701122970_2_alg».proof.Proof.QuantSpec
import proofs.«102641_j32684701122970_2_alg».proof.Proof.LibAxisReads
import Idealize.ShloMosaic.Lib.IdealHost
import Idealize.ShloMosaic.Lib.ValueIdx
import Idealize.ShloMosaic.Lib.Pipeline.Value

noncomputable section

namespace Cert.Quant

open Idealize.ShloMosaic Idealize.ShloMosaic.ValueIdx

/-- Row p · 2048 + q of the tall matrix lies among its 8192 rows. -/
theorem tall_row_lt (p : Fin 4) (q : Fin 2048) : p.val * 2048 + q.val < 8192 := by
  have hp := p.isLt
  have hq := q.isLt
  omega

/-- The contractions over the activations laid out as a tall matrix, regrouped to [4, 2048, 4096], are the layer's
    output: the entry (p, q, o) of the regrouped array is the entry (p · 2048 + q, o) of the matrix, whose summands
    read the tall matrix at (p · 2048 + q, k), that is the activations at (p, q, k). -/
theorem out_of_mm (h' : SX3.ShapeCasts SX2) (h : SX2.ShapeCasts SX3) (x : SX3.Idx → EReal) (D : SW2.Idx → EReal) (b : SB.Idx → EReal) :
    shapeCast SX3 (mm (shapeCast SX2 x h') D b) h = out x D b := by
  funext i
  obtain ⟨p, q, o, rfl⟩ : ∃ (p : Fin 4) (q : Fin 2048) (o : Fin 4096), i = ix3 p q o := ⟨i 0, i 1, i 2, eq_ix3 i⟩
  refine (Cert.AxisReads.shapeCast_tall_stack_apply (mm (shapeCast SX2 x h') D b) h
    (⟨p.val * 2048 + q.val, tall_row_lt p q⟩ : Fin 8192) p q o rfl).trans ?_
  show (∑ k : Fin 4096, shapeCast SX2 x h' (ix2 (⟨p.val * 2048 + q.val, tall_row_lt p q⟩ : Fin 8192) k) * D (ix2 o k)) + b (ix1 o)
    = (∑ k : Fin 4096, x (ix3 p q k) * D (ix2 o k)) + b (ix1 o)
  refine congrArg (· + b (ix1 o)) (Finset.sum_congr rfl fun k _ => ?_)
  exact congrArg (· * D (ix2 o k))
    (Cert.AxisReads.shapeCast_stack_tall_apply x h' (⟨p.val * 2048 + q.val, tall_row_lt p q⟩ : Fin 8192) p q k rfl)

/-- The array of reciprocals — the constant one repeated over the scales' shape, divided by the scales — is `1 / s`
    entry by entry: the repeated constant reads the f32 word of one, which is the real one. -/
theorem recip_entry (hb : (⟨0, ![]⟩ : Shape).BroadcastsInDim SQ ![]) (s : SQ.Idx → EReal) (j : SQ.Idx) :
    Host.divf (F := Ideal) (broadcastInDim SQ ![] hb (constant (F := Ideal) ⟨0, ![]⟩ .f32 0x3F800000#32)) s j = Ideal.div 1 (s j) := by
  rw [hostDivf_apply, broadcastInDim_scalar_apply, constant_apply, Ideal.ofBits_one_f32]

end Cert.Quant

end
-- ==== Proof.KernelValue.lean ====
/-
  The idealized kernel program computes the quantized linear layer.

  Read through the program's five segments: the weights are regrouped to [4096, 128, 32] and the reciprocal scales
  1 / s formed on the host; the first region dequantizes with those reciprocals, which is the dequantization by the
  quotient w / s (the two agree at every extended real); the dequantized weights are laid back out as [4096, 4096] and
  the activations as a tall [8192, 4096] matrix (the change to the narrower float format is the identity on extended
  reals); the second region contracts them over the 4096 channels and adds the bias; the result is cast back to
  [4, 2048, 4096].  Row 2048 p + q of the tall matrix is position (p, q), so the result is the layer's output.
-/
import proofs.«102641_j32684701122970_2_alg».proof.Proof.RunValue
import proofs.«102641_j32684701122970_2_alg».proof.Proof.HostGlue
import proofs.«102641_j32684701122970_2_alg».proof.Proof.DequantValue
import proofs.«102641_j32684701122970_2_alg».proof.Proof.MatmulValue
import proofs.«102641_j32684701122970_2_alg».proof.Proof.Relayout

noncomputable section

open Idealize.ShloMosaic Idealize.ShloMosaic.TcCoe Idealize.SL.Sem

namespace Cert.KernelIdeal.KernelValue

open Cert.KernelIdeal Cert.KernelIdeal.Gen

variable (m : (ℓ : Loc nD τ sig) → Buf (Elt Ideal) ℓ) (ρ : Dev nD → PrngReg)

/-- The layer's output from the five argument arrays as launched on core `c`. -/
abbrev layerOf (c : Dev nD) : Buf (Elt Ideal) ((c : Thread nD τ).loc main_v8) :=
  Cert.Quant.layer shapeCasts_S4096x4096_S4096x128x32 shapeCasts_S4096x128x32_S4096x4096
    (m ((c : Thread nD τ).loc main_arg0)) (m ((c : Thread nD τ).loc main_arg1)) (m ((c : Thread nD τ).loc main_arg2))
    (m ((c : Thread nD τ).loc main_arg3)) (m ((c : Thread nD τ).loc main_arg4))

/-- What the last boundary gives the result array is the layer's output. -/
theorem result_is_layer (c : Dev nD) : W5 m ρ c (Proc.devRef .tc main_v8) = layerOf m c := by
  rw [HostGlue.W5_v8, MatmulValue.region1_value, HostGlue.V3_v6, HostGlue.V3_v4, HostGlue.V3_arg2,
    DequantValue.region0_value, HostGlue.V1_v0, HostGlue.V1_v2, HostGlue.V1_arg3, HostGlue.V1_arg4]
  have hrec : Cert.Quant.deqRecip (shapeCast S4096x128x32 (m ((c : Thread nD τ).loc main_arg1)) shapeCasts_S4096x4096_S4096x128x32)
      (Host.divf (broadcastInDim S4096x128x1 ![] bcast_S_S4096x128x1 (constant (F := Ideal) S_ .f32 0x3F800000#32))
        (m ((c : Thread nD τ).loc main_arg3)))
      (m ((c : Thread nD τ).loc main_arg3)) (m ((c : Thread nD τ).loc main_arg4))
      = Cert.Quant.deq (shapeCast S4096x128x32 (m ((c : Thread nD τ).loc main_arg1)) shapeCasts_S4096x4096_S4096x128x32)
        (m ((c : Thread nD τ).loc main_arg3)) (m ((c : Thread nD τ).loc main_arg4)) :=
    Cert.Quant.deqRecip_eq _ _ _ _ (fun j => Cert.Quant.recip_entry bcast_S_S4096x128x1 (m ((c : Thread nD τ).loc main_arg3)) j)
  rw [hrec]
  exact Cert.Quant.out_of_mm shapeCasts_S4x2048x4096_S8192x4096 shapeCasts_S8192x4096_S4x2048x4096
    (m ((c : Thread nD τ).loc main_arg0)) _ (m ((c : Thread nD τ).loc main_arg2))

/-- Every weakly fair execution of the program terminates, nothing faulting, with the result array at the layer's
    output of the arguments as launched and the arguments unchanged. -/
theorem run : θ_run defs (onTc (τ := τ) (main (F := Ideal))) ⟨m, fun _ => 0, ρ⟩ (fun r => ∀ c : Dev nD,
      r.2.mem ((c.tc : Thread nD τ).loc main_v8) = layerOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (result_is_layer m ρ c), (h c).2⟩) (RunValue.run_result m ρ)

end Cert.KernelIdeal.KernelValue

end
-- ==== Proof.RefValue.lean ====
/-
  The reference program computes the quantized linear layer of the specification.

  Read one element at a time, the reference forms, for a weight `w` at (o, g, e) with its group's scale `s` and
  zero point `z` (both stored at (o, g, 0) of a [4096, 128, 1] array),
  `(min 15 (max 0 (round (w / s + z))) - z) · s`, which is the specification's `dqQuot w s z`; the array of these
  is the specification's `deq`.  Laid back out as a [4096, 4096] matrix `D`, it is contracted with the activations:
  the result at (p, q, o) is `∑ k, x (p, q, k) · D (o, k)` plus the bias at `o`, the specification's `outAt`.
  The two regroupings of the weight matrix ([4096, 4096] to [4096, 128, 32] and back) are the same terms on both
  sides and are never opened.
-/
import proofs.«102641_j32684701122970_2_alg».proof.Proof.Gen.ReferenceIdeal.Read
import proofs.«102641_j32684701122970_2_alg».proof.Proof.QuantSpec
import Idealize.ShloMosaic.Lib.ValueIdx
import Idealize.ShloMosaic.PureOps.Ideal

noncomputable section
open Idealize.ShloMosaic Idealize.ShloMosaic.TcCoe Idealize.SL.Sem
namespace Cert.ReferenceIdeal.RefValue
open Cert.ReferenceIdeal Cert.ReferenceIdeal.Gen
open Cert.ReferenceIdeal.Read Idealize.ShloMosaic.ValueIdx

/-! ## The indices the reference reads at, by coordinates -/

/-- The scale read for the quotient at (o, g, e) is the one stored at (o, g, 0). -/
theorem idx_v1_eq (i : S4096x128x32.Idx) : idx_main_v1 i = ix3 (i 0) (i 1) (0 : Fin 1) :=
  funext fun a => Fin.ext (by match a with | ⟨0, _⟩ => rfl | ⟨1, _⟩ => rfl | ⟨2, _⟩ => rfl)

/-- The zero point added before rounding at (o, g, e) is the one stored at (o, g, 0). -/
theorem idx_v3_eq (i : S4096x128x32.Idx) : idx_main_v3 i = ix3 (i 0) (i 1) (0 : Fin 1) :=
  funext fun a => Fin.ext (by match a with | ⟨0, _⟩ => rfl | ⟨1, _⟩ => rfl | ⟨2, _⟩ => rfl)

/-- The zero point subtracted after the clamp at (o, g, e) is the one stored at (o, g, 0). -/
theorem idx_v7_eq (i : S4096x128x32.Idx) : idx_main_v7 i = ix3 (i 0) (i 1) (0 : Fin 1) :=
  funext fun a => Fin.ext (by match a with | ⟨0, _⟩ => rfl | ⟨1, _⟩ => rfl | ⟨2, _⟩ => rfl)

/-- The scale of the final product at (o, g, e) is the one stored at (o, g, 0). -/
theorem idx_v9_eq (i : S4096x128x32.Idx) : idx_main_v9 i = ix3 (i 0) (i 1) (0 : Fin 1) :=
  funext fun a => Fin.ext (by match a with | ⟨0, _⟩ => rfl | ⟨1, _⟩ => rfl | ⟨2, _⟩ => rfl)

/-- The contraction's left operand for the result at (p, q, o) and summation index `k` is the activation at (p, q, k). -/
theorem lidx_v12_eq (i : S4x2048x4096.Idx) (k : Fin 4096) : lidx_main_v12 i k = ix3 (i 0) (i 1) k :=
  funext fun a => Fin.ext (by match a with | ⟨0, _⟩ => rfl | ⟨1, _⟩ => rfl | ⟨2, _⟩ => rfl)

/-- The contraction's right operand for the result at (p, q, o) and summation index `k` is the matrix entry (o, k). -/
theorem ridx_v12_eq (i : S4x2048x4096.Idx) (k : Fin 4096) : ridx_main_v12 i k = ix2 (i 2) k :=
  funext fun a => Fin.ext (by match a with | ⟨0, _⟩ => rfl | ⟨1, _⟩ => rfl)

/-- The bias added to the result at (p, q, o) is the one at `o`. -/
theorem bias_idx_eq (i : S4x2048x4096.Idx) : idx_main_v13 (idx_main_v14 i) = ix1 (i 2) :=
  funext fun a => Fin.ext (by match a with | ⟨0, _⟩ => rfl)

/-! ## The dequantized weights -/

/-- Element by element the reference's product `(min 15 (max 0 (round (w / s + z))) - z) · s` is the
    specification's dequantized weight, so the [4096, 128, 32] array it forms is `deq` of the regrouped weights. -/
theorem deq_stage (x1 : (⟨S4096x4096, .f32⟩ : BufTy).Contents (Elt Ideal))
    (x3 x4 : (⟨S4096x128x1, .f32⟩ : BufTy).Contents (Elt Ideal)) :
    val_main_v10 (F := Ideal) x1 x3 x4 = Cert.Quant.deq (val_main_v0 (F := Ideal) x1) x3 x4 := by
  funext i
  rw [val_main_v10_apply, val_main_v8_apply, val_main_v6_apply, val_main_call1_v4_apply, val_main_call1_v3_apply,
    val_main_cst_0_apply, val_main_call1_v2_apply, val_main_call1_v1_apply, val_main_call1_v0_apply,
    val_main_cst_apply, val_main_v5_apply, val_main_v4_apply, val_main_v2_apply, val_main_v3_apply,
    val_main_v7_apply, val_main_v9_apply, val_main_v1_apply, idx_v1_eq, idx_v3_eq, idx_v7_eq, idx_v9_eq]
  unfold Cert.Quant.deq Cert.Quant.dqQuot
  rfl

/-! ## The contraction -/

/-- The reference's result at (p, q, o) is `∑ k, x (p, q, k) · D (o, k) + b o` with `D` the dequantized weights
    laid out as a matrix: the specification's layer. -/
theorem reference_is_layer (x0 : (⟨S4x2048x4096, .f32⟩ : BufTy).Contents (Elt Ideal)) (x1 : (⟨S4096x4096, .f32⟩ : BufTy).Contents (Elt Ideal))
    (x2 : (⟨S4096, .f32⟩ : BufTy).Contents (Elt Ideal)) (x3 x4 : (⟨S4096x128x1, .f32⟩ : BufTy).Contents (Elt Ideal)) :
    Cert.ReferenceIdeal.Read.val_main_v15 (F := Ideal) x0 x1 x2 x3 x4
      = Cert.Quant.layer shapeCasts_S4096x4096_S4096x128x32 shapeCasts_S4096x128x32_S4096x4096 x0 x1 x2 x3 x4 := by
  have hD : val_main_v11 (F := Ideal) x1 x3 x4
      = shapeCast Cert.Quant.SW2 (Cert.Quant.deq (shapeCast Cert.Quant.SW3 x1 shapeCasts_S4096x4096_S4096x128x32) x3 x4)
          shapeCasts_S4096x128x32_S4096x4096 := by
    unfold val_main_v11
    rw [deq_stage]
    rfl
  funext i
  rw [val_main_v15_apply, val_main_v12_apply, val_main_v14_apply, val_main_v13_apply, hD, bias_idx_eq, Ideal.addf_def]
  unfold Cert.Quant.layer Cert.Quant.out Cert.Quant.outAt
  refine congrArg (· + x2 (ix1 (i 2))) (Finset.sum_congr rfl fun k _ => ?_)
  rw [lidx_v12_eq, ridx_v12_eq]
  rfl

end Cert.ReferenceIdeal.RefValue

end
-- ==== Proof.lean ====
/-
  The certificate of a group-wise 4-bit quantized linear layer: a two-region kernel program (dequantize the weights once,
  then a K-blocked matrix product with the bias as the accumulator's start) against the reference that dequantizes and
  contracts on the host.

  Over the extended reals both compute out (p, q, o) = Σₖ x (p, q, k) · dq (o, k) + bias o with
  dq = (clamp₀¹⁵ (round (w / s + z)) - z) · s.  The kernel multiplies w by a reciprocal 1 / s where the reference divides
  by s; the two dequantized weights agree at every extended real (off s = 0 the quotient is the product with the
  inverse, at s = 0 the trailing factor s makes both zero), and the K-blocked accumulation is the same sum in another
  grouping.  No finiteness of the inputs is used.
-/
import proofs.«102641_j32684701122970_2_alg».proof.Defs
import proofs.«102641_j32684701122970_2_alg».proof.Proof.Gen.Kernel
import proofs.«102641_j32684701122970_2_alg».proof.Proof.Gen.Kernel.Frame
import proofs.«102641_j32684701122970_2_alg».proof.Proof.Gen.KernelIdeal
import proofs.«102641_j32684701122970_2_alg».proof.Proof.Gen.KernelIdeal.Frame
import proofs.«102641_j32684701122970_2_alg».proof.Proof.Gen.ReferenceIdeal
import proofs.«102641_j32684701122970_2_alg».proof.Proof.Gen.ReferenceIdeal.Run
import proofs.«102641_j32684701122970_2_alg».proof.Proof.Gen.ReferenceIdeal.Read
import proofs.«102641_j32684701122970_2_alg».proof.Proof.Gen.Pre_finite_inputs
import proofs.«102641_j32684701122970_2_alg».proof.Proof.KernelValue
import proofs.«102641_j32684701122970_2_alg».proof.Proof.RefValue

noncomputable section

namespace Cert.Proof

open Idealize.ShloMosaic Idealize.ShloMosaic.TcCoe Idealize.SL.Sem

/-- The printed kernel runs and leaves its arguments unchanged. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference is host operations only: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the layer's output of arguments that agree. -/
theorem algebraic : Cert.algebraic_KernelIdeal_ReferenceIdeal := by
  intro m ρ m' ρ' _ hagree
  refine ⟨fun c => Cert.KernelIdeal.KernelValue.layerOf m c, Cert.KernelIdeal.KernelValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v15_eq, Cert.ReferenceIdeal.RefValue.reference_is_layer,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
